-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1048576 : Shape := ⟨1, ![1048576]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S65536x64 .f32) (main_arg1 : FVec F S65536x64 .f32) (main_arg2 : IVec S1048576 32) (main_arg3 : IVec S1048576 32) (main_arg4 : FVec F S1048576 .f32) (main_arg5 : IVec S1048576 32) (main_arg6 : IVec S1048576 32) (main_arg7 : FVec F S1048576 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S1048576 .f32 := Host.absf main_arg4
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S1048576 .f32 := Host.absf main_arg7
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S65536x64 : Shape := ⟨2, ![65536, 64]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S8192x64 : Shape := ⟨2, ![8192, 64]⟩
abbrev S8192x1 : Shape := ⟨2, ![8192, 1]⟩

abbrev nBuf : Space → Nat
  | .hbm => 38
  | .vmem => 12
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S1048576, .i32⟩
  | .hbm, ⟨3, _⟩ => ⟨S1048576, .i32⟩
  | .hbm, ⟨4, _⟩ => ⟨S1048576, .f32⟩
  | .hbm, ⟨5, _⟩ => ⟨S1048576, .i32⟩
  | .hbm, ⟨6, _⟩ => ⟨S1048576, .i32⟩
  | .hbm, ⟨7, _⟩ => ⟨S1048576, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x64, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576x64, .f32⟩
  | .hbm, ⟨26, _⟩ => ⟨S1048576x1, .f32⟩
  | .hbm, ⟨27, _⟩ => ⟨S1048576x64, .f32⟩
  | .hbm, ⟨28, _⟩ => ⟨S1048576x1, .f32⟩
  | .hbm, ⟨29, _⟩ => ⟨S1048576x64, .f32⟩
  | .hbm, ⟨30, _⟩ => ⟨S_, .f32⟩
  | .hbm, ⟨31, _⟩ => ⟨S65536x64, .f32⟩
  | .hbm, ⟨32, _⟩ => ⟨S1048576x1, .i32⟩
  | .hbm, ⟨33, _⟩ => ⟨S65536x64, .f32⟩
  | .hbm, ⟨34, _⟩ => ⟨S_, .f32⟩
  | .hbm, ⟨35, _⟩ => ⟨S65536x64, .f32⟩
  | .hbm, ⟨36, _⟩ => ⟨S1048576x1, .i32⟩
  | .hbm, ⟨37, _⟩ => ⟨S65536x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x1, .f32⟩
  | .local _ .vmem, ⟨9, _⟩ => ⟨S8192x1, .f32⟩
  | .local _ .vmem, ⟨10, _⟩ => ⟨S8192x64, .f32⟩
  | .local _ .vmem, ⟨11, _⟩ => ⟨S8192x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S65536x64 : S_.BroadcastsInDim S65536x64 (![] : Fin 0 → Fin S65536x64.rank)
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1048576x1.size a
  hwx0_1 : ∀ i : grid0.Coords, EltTy.bits .f32 = 32 ∨ (Rect.block (s := S1048576x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1048576x64.size a
  hwx0_2 : ∀ i : grid0.Coords, EltTy.bits .f32 = 32 ∨ (Rect.block (s := S1048576x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1048576x64.size a
  hwx1_0 : ∀ i : grid1.Coords, EltTy.bits .f32 = 32 ∨ (Rect.block (s := S1048576x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1048576x1.size a
  hwx1_1 : ∀ i : grid1.Coords, EltTy.bits .f32 = 32 ∨ (Rect.block (s := S1048576x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1048576x64.size a
  hwx1_2 : ∀ i : grid1.Coords, EltTy.bits .f32 = 32 ∨ (Rect.block (s := S1048576x64) S8192x64.size (cc1_transform_2 i) (hinb1_2 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

abbrev win0_0 : Pipeline.Window sig grid0 :=
  Pipeline.Window.ofSpec (Memref.whole main_v6) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x64 : Shape := ⟨2, ![65536, 64]⟩
abbrev S1048576 : Shape := ⟨1, ![1048576]⟩
abbrev S1048576x1 : Shape := ⟨2, ![1048576, 1]⟩
abbrev S_ : Shape := ⟨0, ![]⟩
abbrev S1048576x64 : Shape := ⟨2, ![1048576, 64]⟩

abbrev nBuf : Space → Nat
  | .hbm => 40
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S1048576, .i32⟩
  | .hbm, ⟨3, _⟩ => ⟨S1048576, .i32⟩
  | .hbm, ⟨4, _⟩ => ⟨S1048576, .f32⟩
  | .hbm, ⟨5, _⟩ => ⟨S1048576, .i32⟩
  | .hbm, ⟨6, _⟩ => ⟨S1048576, .i32⟩
  | .hbm, ⟨7, _⟩ => ⟨S1048576, .f32⟩
  | .hbm, ⟨8, _⟩ => ⟨S1048576x1, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S1048576x1, .i32⟩
  | .hbm, ⟨17, _⟩ => ⟨S1048576x64, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S65536x64, .f32⟩
  | .hbm, ⟨22, _⟩ => ⟨S1048576x1, .i32⟩
  | .hbm, ⟨23, _⟩ => ⟨S65536x64, .f32⟩
  | .hbm, ⟨24, _⟩ => ⟨S1048576x1, .f32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576x64, .f32⟩
  | .hbm, ⟨34, _⟩ => ⟨S1048576x64, .f32⟩
  | .hbm, ⟨35, _⟩ => ⟨S1048576x64, .f32⟩
  | .hbm, ⟨36, _⟩ => ⟨S_, .f32⟩
  | .hbm, ⟨37, _⟩ => ⟨S65536x64, .f32⟩
  | .hbm, ⟨38, _⟩ => ⟨S1048576x1, .i32⟩
  | .hbm, ⟨39, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

class Facts : Prop extends Facts₀ where

variable [Facts]
-- ==== Proof.Scale.lean ====
/-
  Scaling the rows of a matrix by a column.

  Both programs multiply row `e` of an edge-by-feature matrix `g` (the looked-up node rows) by the weight of edge `e`.
  The weights arrive as a one-column matrix `w`; the product at entry `(e, d)` is `g (e, d) · w (e, 0)`.
  The kernel forms `g · w` block by block; the reference spreads `w` across the columns and forms `w · g`.
  Over the extended reals multiplication is commutative, so the two are one function: nothing here needs the entries
  to be finite.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.EdgeScale

/-- The edge-by-feature matrices. -/
abbrev SE64 : Shape := ⟨2, ![1048576, 64]⟩
/-- The one-column matrices of edge weights. -/
abbrev SE1 : Shape := ⟨2, ![1048576, 1]⟩

variable {F : FTy → Type} [FloatOps F]

/-- Row `e` of `g` multiplied through by the single entry of row `e` of the column `w`. -/
def scaleRows (g : SE64.Idx → Elt F .f32) (w : SE1.Idx → Elt F .f32) : SE64.Idx → Elt F .f32 :=
  fun i => FloatOps.mulf (g i) (w (ix2 (i 0) 0))

/-- At an entry given by its coordinates. -/
theorem scaleRows_apply (g : SE64.Idx → Elt F .f32) (w : SE1.Idx → Elt F .f32) (e : Fin 1048576) (d : Fin 64) :
    scaleRows g w (ix2 e d) = FloatOps.mulf (g (ix2 e d)) (w (ix2 e 0)) := rfl

/-- The column spread across the 64 feature columns and multiplied on the LEFT of `g`, over the extended reals, is
    `scaleRows g w`: the spread column reads `w (e, 0)` at every `(e, d)`, and the product commutes. -/
theorem spread_mul_eq (h : SE1.BroadcastsInDim SE64 ![0, 1]) (w : FVec Ideal SE1 .f32) (g : FVec Ideal SE64 .f32) :
    mulf (broadcastInDim SE64 ![0, 1] h w) g = scaleRows (F := Ideal) g w := by
  funext i
  show broadcastInDim SE64 ![0, 1] h w i * g i = g i * w (ix2 (i 0) 0)
  rw [broadcastInDim_apply ![0, 1] h w i (ix2 (i 0) 0) (fun a => by
    match a with
    | ⟨0, _⟩ => rfl
    | ⟨1, _⟩ => rfl)]
  exact mul_comm _ _

end Cert.EdgeScale

end
-- ==== Proof.EdgeRun.lean ====
/-
  The kernel program's run with its two result arrays named.

  The program is three stretches of host operations around two scaling calls. Its run ends with every unscoped buffer
  of a core at the contents the last stretch leaves; read at the two result buffers this names what the results hold
  (the fold of the five segments over the launch memory, opened in the next module), and read at the eight argument
  buffers it says the arguments end as launched.
-/
import proofs.«152293_j77163382440859_2_alg».proof.Proof.Gen.KernelIdeal.Frame

set_option maxRecDepth 16384

noncomputable section

namespace Cert.KernelIdeal.EdgeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at what the
    last stretch of host operations leaves in them, and the arguments end as launched. -/
theorem run_results : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v20 (by decide)),
       h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.EdgeRun

end
-- ==== Proof.EdgeBlocks.lean ====
/-
  Each scaling call, from its blocks to its whole output array.

  A call walks the 1,048,576 edges in 128 blocks of 8,192 rows. At block `t` it reads rows `8192·t … 8192·t + 8191` of the
  looked-up matrix and of the weight column, multiplies each row by its weight, and writes the same rows of the output.
  So what block `t` writes back is block `t` of ONE function of the two input arrays (`scaleRows`), and since the 128
  blocks tile the array the output array ends holding that function. Stated for the arrays as the call finds them,
  whatever they are.
-/
import proofs.«152293_j77163382440859_2_alg».proof.Proof.Gen.KernelIdeal.Frame
import proofs.«152293_j77163382440859_2_alg».proof.Proof.Scale
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.EdgeBlocks

open Cert.KernelIdeal Cert.KernelIdeal.Gen Cert.EdgeScale

variable {F : FTy → Type} [FloatOps F]
variable (V : (c : Dev nD) → (b : Ref sig .tc) → Buf (Elt F) ((c : Thread nD τ).loc b))

/-- The body's accesses start at the block's corner. -/
theorem corner : (![0, 0] : Fin 2 → Nat) = fun _ => 0 := funext fun a => by fin_cases a <;> rfl

/-! ## The first call -/

/-- The body's product at an entry of the block: that entry of the row block times the one entry of the same row of the
    weight block. -/
theorem pay0_apply (x0 : Vec F S8192x64 .f32) (x1 : Vec F S8192x1 .f32) (y : S8192x64.Idx) :
    k0_pay1 x0 x1 y = FloatOps.mulf (x0 y) (x1 (ix2 (y 0) 0)) := by
  obtain ⟨p, q, rfl⟩ : ∃ (p : Fin 8192) (q : Fin 64), y = ix2 p q := ⟨y 0, y 1, eq_ix2 y⟩
  unfold k0_pay1
  show FloatOps.mulf (shapeCast S8192x64 x0 shapeCasts_S8192x64_S8192x64 (ix2 p q))
      (broadcastTo S8192x64 (shapeCast S8192x1 x1 shapeCasts_S8192x1_S8192x1) broadcasts_S8192x1_S8192x64 (ix2 p q)) = _
  rw [shapeCast_self, shapeCast_self,
    broadcastTo_apply x1 broadcasts_S8192x1_S8192x64 (ix2 p q) (ix2 p 0) (fun a => by
      match a with
      | ⟨0, _⟩ => rfl
      | ⟨1, _⟩ => rfl)]

/-- The three windows move together: at point `t` each is at row block `t`, column block 0. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the rows of the looked-up matrix scaled by the weight column. -/
theorem flushed0_eq (c : Dev nD) (t : Fin cfg0.N) :
    (dat0 V c).flushed 2 t = ((cfg0.win 2).blk t).view.read (Elt F) (scaleRows (V c main_v6) (V c main_v14)) := by
  show (cfg0.win 2).cut (grid0.coords t) ((dat0 V c).after 2 t) = _
  rw [after0_2]
  unfold out0_2
  rw [View.canon_unit_zero corner]
  simp only [View.ld_unit_zero (S := S8192x64) corner, View.ld_unit_zero (S := S8192x1) corner]
  obtain ⟨e0, e1, e2, e3, e4, e5⟩ := index_facts0 t
  funext j
  refine (pay0_apply (iblk0 V c 0 t) (iblk0 V c 1 t) j).trans ?_
  show FloatOps.mulf (V c main_v6 (((cfg0.win 0).blk t).view.emb j)) (V c main_v14 (((cfg0.win 1).blk t).view.emb (ix2 (j 0) 0)))
    = FloatOps.mulf (V c main_v6 (((cfg0.win 2).blk t).view.emb j)) (V c main_v14 (ix2 ((((cfg0.win 2).blk t).view.emb j) 0) 0))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (n0 := 8192) (n1 := 1) (j 0) 0)
      = (ix2 (n0 := 1048576) (n1 := 1) ((((cfg0.win 2).blk t).view.emb j) 0) 0 : S1048576x1.Idx) := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 1 + 1 * 0 = 0; omega
  rw [h0, h1]

/-- An index of the output array lies in point `t`'s block iff each coordinate lies in the block's range on its axis. -/
theorem mem_blk0 (t : Fin cfg0.N) (i : S1048576x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v15).slice (win0_2.rect t)).set ↔ _
  rw [View.set_slice_whole, Rect.mem_set_unit]
  exact Iff.rfl

/-- Row `r` of the output is written at point `r / 8192`: the blocks tile the array. -/
theorem cover0 (i : S1048576x64.Idx) : ∃ t : Fin cfg0.N, (cfg0.win 2).flush t = true ∧ i ∈ ((cfg0.win 2).blk t).view.set := by
  have hi0 : (i 0).val < 1048576 := idx2_lt0 i
  have hi1 : (i 1).val < 64 := idx2_lt1 i
  have hN : cfg0.N = 128 := N_0
  let t : Fin cfg0.N := ⟨(i 0).val / 8192, by rw [hN]; omega⟩
  obtain ⟨-, -, -, -, e4, e5⟩ := index_facts0 t
  have e4' : win0_2.index t (0 : Fin 2) = (i 0).val / 8192 := e4
  refine ⟨t, flush0_2 t, ?_⟩
  rw [mem_blk0]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- The first call's output array after the call: the looked-up rows scaled by the weight column. -/
theorem final0 (c : Dev nD) : (dat0 V c).arrAt 2 cfg0.N = scaleRows (V c main_v6) (V c main_v14) :=
  (dat0 V c).arrAt_eq_of_cover 2 (scaleRows (V c main_v6) (V c main_v14)) (fun t _ => flushed0_eq V c t) cover0

/-! ## The second call -/

/-- The body's product at an entry of the block: that entry of the row block times the one entry of the same row of the
    weight block. -/
theorem pay1_apply (x0 : Vec F S8192x64 .f32) (x1 : Vec F S8192x1 .f32) (y : S8192x64.Idx) :
    k1_pay1 x0 x1 y = FloatOps.mulf (x0 y) (x1 (ix2 (y 0) 0)) := by
  obtain ⟨p, q, rfl⟩ : ∃ (p : Fin 8192) (q : Fin 64), y = ix2 p q := ⟨y 0, y 1, eq_ix2 y⟩
  unfold k1_pay1
  show FloatOps.mulf (shapeCast S8192x64 x0 shapeCasts_S8192x64_S8192x64 (ix2 p q))
      (broadcastTo S8192x64 (shapeCast S8192x1 x1 shapeCasts_S8192x1_S8192x1) broadcasts_S8192x1_S8192x64 (ix2 p q)) = _
  rw [shapeCast_self, shapeCast_self,
    broadcastTo_apply x1 broadcasts_S8192x1_S8192x64 (ix2 p q) (ix2 p 0) (fun a => by
      match a with
      | ⟨0, _⟩ => rfl
      | ⟨1, _⟩ => rfl)]

/-- The three windows move together: at point `t` each is at row block `t`, column block 0. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the rows of the looked-up matrix scaled by the weight column. -/
theorem flushed1_eq (c : Dev nD) (t : Fin cfg1.N) :
    (dat1 V c).flushed 2 t = ((cfg1.win 2).blk t).view.read (Elt F) (scaleRows (V c main_v13) (V c main_v16)) := by
  show (cfg1.win 2).cut (grid1.coords t) ((dat1 V c).after 2 t) = _
  rw [after1_2]
  unfold out1_2
  rw [View.canon_unit_zero corner]
  simp only [View.ld_unit_zero (S := S8192x64) corner, View.ld_unit_zero (S := S8192x1) corner]
  obtain ⟨e0, e1, e2, e3, e4, e5⟩ := index_facts1 t
  funext j
  refine (pay1_apply (iblk1 V c 0 t) (iblk1 V c 1 t) j).trans ?_
  show FloatOps.mulf (V c main_v13 (((cfg1.win 0).blk t).view.emb j)) (V c main_v16 (((cfg1.win 1).blk t).view.emb (ix2 (j 0) 0)))
    = FloatOps.mulf (V c main_v13 (((cfg1.win 2).blk t).view.emb j)) (V c main_v16 (ix2 ((((cfg1.win 2).blk t).view.emb j) 0) 0))
  have h0 : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (n0 := 8192) (n1 := 1) (j 0) 0)
      = (ix2 (n0 := 1048576) (n1 := 1) ((((cfg1.win 2).blk t).view.emb j) 0) 0 : S1048576x1.Idx) := by
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega
  rw [h0, h1]

/-- An index of the output array lies in point `t`'s block iff each coordinate lies in the block's range on its axis. -/
theorem mem_blk1 (t : Fin cfg1.N) (i : S1048576x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v17).slice (win1_2.rect t)).set ↔ _
  rw [View.set_slice_whole, Rect.mem_set_unit]
  exact Iff.rfl

/-- Row `r` of the output is written at point `r / 8192`: the blocks tile the array. -/
theorem cover1 (i : S1048576x64.Idx) : ∃ t : Fin cfg1.N, (cfg1.win 2).flush t = true ∧ i ∈ ((cfg1.win 2).blk t).view.set := by
  have hi0 : (i 0).val < 1048576 := idx2_lt0 i
  have hi1 : (i 1).val < 64 := idx2_lt1 i
  have hN : cfg1.N = 128 := N_1
  let t : Fin cfg1.N := ⟨(i 0).val / 8192, by rw [hN]; omega⟩
  obtain ⟨-, -, -, -, e4, e5⟩ := index_facts1 t
  have e4' : win1_2.index t (0 : Fin 2) = (i 0).val / 8192 := e4
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- The second call's output array after the call: the looked-up rows scaled by the weight column. -/
theorem final1 (c : Dev nD) : (dat1 V c).arrAt 2 cfg1.N = scaleRows (V c main_v13) (V c main_v16) :=
  (dat1 V c).arrAt_eq_of_cover 2 (scaleRows (V c main_v13) (V c main_v16)) (fun t _ => flushed1_eq V c t) cover1

end Cert.KernelIdeal.EdgeBlocks

end
-- ==== Proof.EdgeValue.lean ====
/-
  What the kernel program's two results hold, as one term of the argument arrays.

  For one relation (node features `x`, edge ends `rows` / `cols`, edge weights `vals`): the row numbers `cols` are made
  lookup indices (a negative one counted from the end) and the rows of `x` at them are looked up, one per edge; the
  weights are cast to a column; a scaling call multiplies each looked-up row by its weight; and the scaled rows are
  accumulated into zeros at the rows `rows` name. The program does this for two relations, the lookups first, then the
  first call, then the second, then the two accumulations. Each buffer is followed through the five segments: a buffer a
  segment does not write keeps its contents, a call's output array ends at the scaled rows (the previous module), and a
  stretch of host operations leaves each of its results at the operation's value of its operands.
-/
import proofs.«152293_j77163382440859_2_alg».proof.Proof.Gen.KernelIdeal.Frame
import proofs.«152293_j77163382440859_2_alg».proof.Proof.EdgeBlocks
import Idealize.ShloMosaic.Lib.StableHlo.Run

noncomputable section

namespace Cert.KernelIdeal.EdgeValue

open Cert.KernelIdeal Cert.KernelIdeal.Gen Cert.EdgeScale
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## One relation's result as a term -/

/-- The lookup indices: each row number, a negative one counted from the end of the 65,536 rows, as a one-column matrix. -/
abbrev lookupRows (cols : (⟨S1048576, .i32⟩ : BufTy).Contents (Elt F)) : (⟨S1048576x1, .i32⟩ : BufTy).Contents (Elt F) :=
  broadcastInDim S1048576x1 ![0] bcast_S1048576_S1048576x1_0
    (select (cmpi .slt cols (broadcastInDim S1048576 ![] bcast_S_S1048576 (constantI S_ 32 0#32)))
      (addi cols (broadcastInDim S1048576 ![] bcast_S_S1048576 (constantI S_ 32 65536#32))) cols)

/-- The rows of `x` at the lookup indices, one per edge. -/
abbrev looked (x : (⟨S65536x64, .f32⟩ : BufTy).Contents (Elt F)) (cols : (⟨S1048576, .i32⟩ : BufTy).Contents (Elt F)) :
    (⟨S1048576x64, .f32⟩ : BufTy).Contents (Elt F) :=
  Host.gather gather_S65536x64_S1048576x1_S1048576x64_1_0_n_n_0_1_164 x (lookupRows cols)

/-- The edge weights as a one-column matrix. -/
abbrev column (vals : (⟨S1048576, .f32⟩ : BufTy).Contents (Elt F)) : (⟨S1048576x1, .f32⟩ : BufTy).Contents (Elt F) :=
  broadcastInDim S1048576x1 ![0] bcast_S1048576_S1048576x1_0 vals

/-- One relation's result: the looked-up rows, each scaled by its edge's weight, accumulated into zeros at the rows
    `rows` name. -/
abbrev aggregate (x : (⟨S65536x64, .f32⟩ : BufTy).Contents (Elt F)) (rows cols : (⟨S1048576, .i32⟩ : BufTy).Contents (Elt F))
    (vals : (⟨S1048576, .f32⟩ : BufTy).Contents (Elt F)) : (⟨S65536x64, .f32⟩ : BufTy).Contents (Elt F) :=
  Host.scatterAdd scatter_S65536x64_S1048576x1_S1048576x64_1_0_0_1
    (broadcastInDim S65536x64 ![] bcast_S_S65536x64 (constant S_ .f32 0x00000000#32))
    (broadcastInDim S1048576x1 ![0] bcast_S1048576_S1048576x1_0 rows)
    (scaleRows (looked x cols) (column vals))

/-! ## The first call's operands and output -/

/-- The first call finds the first relation's looked-up rows in its first operand … -/
theorem entry0_rows (c : Dev nD) :
    V1 m ρ c main_v6 = looked (m ((c : Thread nD τ).loc main_arg0)) (m ((c : Thread nD τ).loc main_arg3)) := by
  show StableHlo.after hostOps0 (W0 m ρ c) (Proc.devRef .tc main_v6) = _
  after_results

/-- … and the first relation's weights, as a column, in its second. -/
theorem entry0_col (c : Dev nD) : V1 m ρ c main_v14 = column (m ((c : Thread nD τ).loc main_arg4)) := by
  show StableHlo.after hostOps0 (W0 m ρ c) (Proc.devRef .tc main_v14) = _
  after_results

/-- So it leaves the first relation's scaled rows in its output. -/
theorem exit0 (c : Dev nD) : W2 m ρ c (Proc.devRef .tc main_v15)
    = scaleRows (looked (m ((c : Thread nD τ).loc main_arg0)) (m ((c : Thread nD τ).loc main_arg3))) (column (m ((c : Thread nD τ).loc main_arg4))) :=
  (W2_arr m ρ c 2).trans ((EdgeBlocks.final0 (V1 m ρ) c).trans (congrArg₂ scaleRows (entry0_rows m ρ c) (entry0_col m ρ c)))

/-! ## The second call's operands and output -/

/-- The second call finds the second relation's looked-up rows in its first operand: they were looked up before the
    first call, which does not touch them, and the one operation between the calls writes another buffer … -/
theorem entry1_rows (c : Dev nD) :
    V3 m ρ c main_v13 = looked (m ((c : Thread nD τ).loc main_arg1)) (m ((c : Thread nD τ).loc main_arg6)) := by
  have h3 : W3 m ρ c (Proc.devRef .tc main_v13) = W2 m ρ c (Proc.devRef .tc main_v13) := by
    show StableHlo.after hostOps1 (W2 m ρ c) (Proc.devRef .tc main_v13) = _
    after_results
  have h2 : W2 m ρ c (Proc.devRef .tc main_v13) = W1 m ρ c (Proc.devRef .tc main_v13) := W2_of_ne m ρ c main_v13 (by decide)
  have h1 : W1 m ρ c (Proc.devRef .tc main_v13)
      = looked (m ((c : Thread nD τ).loc main_arg1)) (m ((c : Thread nD τ).loc main_arg6)) := by
    show StableHlo.after hostOps0 (W0 m ρ c) (Proc.devRef .tc main_v13) = _
    after_results
  exact h3.trans (h2.trans h1)

/-- … and the second relation's weights, as a column, in its second: the cast between the calls reads the weights as
    launched. -/
theorem entry1_col (c : Dev nD) : V3 m ρ c main_v16 = column (m ((c : Thread nD τ).loc main_arg7)) := by
  have h3 : W3 m ρ c (Proc.devRef .tc main_v16) = column (W2 m ρ c (Proc.devRef .tc main_arg7)) := by
    show StableHlo.after hostOps1 (W2 m ρ c) (Proc.devRef .tc main_v16) = _
    after_results
  have h2 : W2 m ρ c (Proc.devRef .tc main_arg7) = W1 m ρ c (Proc.devRef .tc main_arg7) := W2_of_ne m ρ c main_arg7 (by decide)
  have h1 : W1 m ρ c (Proc.devRef .tc main_arg7) = m ((c : Thread nD τ).loc main_arg7) := by
    show StableHlo.after hostOps0 (W0 m ρ c) (Proc.devRef .tc main_arg7) = _
    after_results
  exact h3.trans (congrArg column (h2.trans h1))

/-- So it leaves the second relation's scaled rows in its output. -/
theorem exit1 (c : Dev nD) : W4 m ρ c (Proc.devRef .tc main_v17)
    = scaleRows (looked (m ((c : Thread nD τ).loc main_arg1)) (m ((c : Thread nD τ).loc main_arg6))) (column (m ((c : Thread nD τ).loc main_arg7))) :=
  (W4_arr m ρ c 2).trans ((EdgeBlocks.final1 (V3 m ρ) c).trans (congrArg₂ scaleRows (entry1_rows m ρ c) (entry1_col m ρ c)))

/-! ## What the last stretch reads -/

/-- The first call's output is still there after the second call. -/
theorem kept0 (c : Dev nD) : W4 m ρ c (Proc.devRef .tc main_v15) = W2 m ρ c (Proc.devRef .tc main_v15) := by
  have h4 : W4 m ρ c (Proc.devRef .tc main_v15) = W3 m ρ c (Proc.devRef .tc main_v15) := W4_of_ne m ρ c main_v15 (by decide)
  have h3 : W3 m ρ c (Proc.devRef .tc main_v15) = W2 m ρ c (Proc.devRef .tc main_v15) := by
    show StableHlo.after hostOps1 (W2 m ρ c) (Proc.devRef .tc main_v15) = _
    after_results
  exact h4.trans h3

/-- The first relation's target rows are as launched after the second call … -/
theorem kept_rows0 (c : Dev nD) : W4 m ρ c (Proc.devRef .tc main_arg2) = m ((c : Thread nD τ).loc main_arg2) := by
  have h4 : W4 m ρ c (Proc.devRef .tc main_arg2) = W3 m ρ c (Proc.devRef .tc main_arg2) := W4_of_ne m ρ c main_arg2 (by decide)
  have h3 : W3 m ρ c (Proc.devRef .tc main_arg2) = W2 m ρ c (Proc.devRef .tc main_arg2) := by
    show StableHlo.after hostOps1 (W2 m ρ c) (Proc.devRef .tc main_arg2) = _
    after_results
  have h2 : W2 m ρ c (Proc.devRef .tc main_arg2) = W1 m ρ c (Proc.devRef .tc main_arg2) := W2_of_ne m ρ c main_arg2 (by decide)
  have h1 : W1 m ρ c (Proc.devRef .tc main_arg2) = m ((c : Thread nD τ).loc main_arg2) := by
    show StableHlo.after hostOps0 (W0 m ρ c) (Proc.devRef .tc main_arg2) = _
    after_results
  exact h4.trans (h3.trans (h2.trans h1))

/-- … and so are the second relation's. -/
theorem kept_rows1 (c : Dev nD) : W4 m ρ c (Proc.devRef .tc main_arg5) = m ((c : Thread nD τ).loc main_arg5) := by
  have h4 : W4 m ρ c (Proc.devRef .tc main_arg5) = W3 m ρ c (Proc.devRef .tc main_arg5) := W4_of_ne m ρ c main_arg5 (by decide)
  have h3 : W3 m ρ c (Proc.devRef .tc main_arg5) = W2 m ρ c (Proc.devRef .tc main_arg5) := by
    show StableHlo.after hostOps1 (W2 m ρ c) (Proc.devRef .tc main_arg5) = _
    after_results
  have h2 : W2 m ρ c (Proc.devRef .tc main_arg5) = W1 m ρ c (Proc.devRef .tc main_arg5) := W2_of_ne m ρ c main_arg5 (by decide)
  have h1 : W1 m ρ c (Proc.devRef .tc main_arg5) = m ((c : Thread nD τ).loc main_arg5) := by
    show StableHlo.after hostOps0 (W0 m ρ c) (Proc.devRef .tc main_arg5) = _
    after_results
  exact h4.trans (h3.trans (h2.trans h1))

/-! ## The two results -/

/-- The first result is the first relation's aggregate. -/
theorem result0 (c : Dev nD) : W5 m ρ c (Proc.devRef .tc main_v20)
    = aggregate (m ((c : Thread nD τ).loc main_arg0)) (m ((c : Thread nD τ).loc main_arg2)) (m ((c : Thread nD τ).loc main_arg3)) (m ((c : Thread nD τ).loc main_arg4)) := by
  have h : W5 m ρ c (Proc.devRef .tc main_v20)
      = Host.scatterAdd scatter_S65536x64_S1048576x1_S1048576x64_1_0_0_1
          (broadcastInDim S65536x64 ![] bcast_S_S65536x64 (constant S_ .f32 0x00000000#32))
          (broadcastInDim S1048576x1 ![0] bcast_S1048576_S1048576x1_0 (W4 m ρ c (Proc.devRef .tc main_arg2)))
          (W4 m ρ c (Proc.devRef .tc main_v15)) := by
    show StableHlo.after hostOps2 (W4 m ρ c) (Proc.devRef .tc main_v20) = _
    after_results
  rw [h, kept_rows0, kept0, exit0]

/-- The second result is the second relation's aggregate. -/
theorem result1 (c : Dev nD) : W5 m ρ c (Proc.devRef .tc main_v23)
    = aggregate (m ((c : Thread nD τ).loc main_arg1)) (m ((c : Thread nD τ).loc main_arg5)) (m ((c : Thread nD τ).loc main_arg6)) (m ((c : Thread nD τ).loc main_arg7)) := by
  have h : W5 m ρ c (Proc.devRef .tc main_v23)
      = Host.scatterAdd scatter_S65536x64_S1048576x1_S1048576x64_1_0_0_1
          (broadcastInDim S65536x64 ![] bcast_S_S65536x64 (constant S_ .f32 0x00000000#32))
          (broadcastInDim S1048576x1 ![0] bcast_S1048576_S1048576x1_0 (W4 m ρ c (Proc.devRef .tc main_arg5)))
          (W4 m ρ c (Proc.devRef .tc main_v17)) := by
    show StableHlo.after hostOps2 (W4 m ρ c) (Proc.devRef .tc main_v23) = _
    after_results
  rw [h, kept_rows1, exit1]

end Cert.KernelIdeal.EdgeValue

end
-- ==== Proof.lean ====
/-
  Two sparse matrix products in coordinate form, each `out[r] = Σ_{e : rows[e] = r} vals[e] · x[cols[e]]`, computed by the
  kernel program and by the reference; the claim is that the two agree as extended reals.

  Both programs look up the rows `x[cols[e]]` and accumulate the scaled rows at `rows[e]` with the same host operations.
  They differ only in the scaling in between: the reference spreads the weights across the 64 columns and multiplies
  `vals · x[cols]` on the host, while the kernel program casts the weights to a column and multiplies `x[cols] · vals` in a
  call that walks the edges in 128 blocks of 8,192. So:
    * each call's output array is the looked-up rows scaled by the weight column (`Proof/EdgeBlocks.lean`: what a block
      writes back is a block of that one function, and the blocks tile the array);
    * the kernel program's results are therefore the accumulation of those scaled rows (`Proof/EdgeRun.lean`,
      `Proof/EdgeValue.lean`: the run with the result buffers named, and each buffer followed through the segments);
    * the reference's product with the spread column is the same scaled rows, because multiplication of extended reals
      commutes (`Proof/Scale.lean`) — no finiteness of the inputs is used;
    * and the lookups and the accumulations are the same operations of the same operands on both sides, never opened.
  The three frame claims are the generated frames (the reference's is its generated run with the results dropped), and
  the idealization rewrote nothing, so there is nothing to preserve.
-/
import proofs.«152293_j77163382440859_2_alg».proof.Defs
import proofs.«152293_j77163382440859_2_alg».proof.Proof.Gen.Kernel
import proofs.«152293_j77163382440859_2_alg».proof.Proof.Gen.Kernel.Frame
import proofs.«152293_j77163382440859_2_alg».proof.Proof.Gen.KernelIdeal
import proofs.«152293_j77163382440859_2_alg».proof.Proof.Gen.KernelIdeal.Frame
import proofs.«152293_j77163382440859_2_alg».proof.Proof.Gen.ReferenceIdeal
import proofs.«152293_j77163382440859_2_alg».proof.Proof.Gen.ReferenceIdeal.Run
import proofs.«152293_j77163382440859_2_alg».proof.Proof.Gen.Pre_finite_inputs
import proofs.«152293_j77163382440859_2_alg».proof.Proof.Scale
import proofs.«152293_j77163382440859_2_alg».proof.Proof.EdgeRun
import proofs.«152293_j77163382440859_2_alg».proof.Proof.EdgeValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

open Cert.KernelIdeal.EdgeValue in
/-- Both programs end with each relation's aggregate of the launch arrays: the kernel program by the run read through
    its segments, the reference by its run, whose product `vals · x[cols]` with the spread weights is the rows of
    `x[cols]` scaled by the weight column. -/
theorem algebraic : Cert.algebraic_KernelIdeal_ReferenceIdeal := by
  intro m ρ m' ρ' _ hagree
  refine ⟨fun c => aggregate (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => aggregate (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (result0 m ρ c), (h c).2.1.trans (result1 m ρ c), (h c).2.2⟩)
      (Cert.KernelIdeal.EdgeRun.run_results (F := Ideal) m ρ)
  · refine (θ_run Cert.ReferenceIdeal.defs _ _).mono (fun _ h c => ?_) (Cert.ReferenceIdeal.Value.run (F := Ideal) m' ρ')
    obtain ⟨a0, a1, a2, a3, a4, a5, a6, a7⟩ := hagree c
    refine ⟨(h c).1.trans ?_, (h c).2.1.trans ?_, (h c).2.2⟩
    · rw [a0, a2, a3, a4, Cert.EdgeScale.spread_mul_eq]
      rfl
    · rw [a1, a5, a6, a7, Cert.EdgeScale.spread_mul_eq]
      rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
